-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .i32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.Spec.lean ====
/-
  One row of a layer normalisation, entry by entry, on the extended reals: the two arrangements this
  certificate compares, as functions of a row `row : Fin 1024 → EReal`, a scale `g` and a shift `b`.

  * `refEntry` doubles the row (`y = row + row`), takes the mean of `y` and the mean of the squared
    deviations of `y` from it, and returns `(y k - mean) / sqrt (var + ε) * g + b`.
  * `kerEntry` works on the undoubled row: `mean = (∑ row) / 1024`, `msq = (∑ row²) / 1024`,
    `s = rsqrt (msq - mean² + ε/4) * g`, and returns `row k * s + (b - mean * s)`.

  Doubling a row doubles its mean and quadruples its variance, and `sqrt (4 v + ε) = 2 sqrt (v + ε/4)`,
  so the factor two cancels and the two entries agree on every row of real numbers.  The float words are
  kept as words here; only their values (zero, 1024, ε and ε/4 with ε the word 0x2B8CBCCC) matter.
-/
import Idealize.ShloMosaic.PureOps.Ideal

noncomputable section

namespace Cert.LayerNorm

open Idealize.ShloMosaic

/-- The zero word. -/
abbrev zeroW : EReal := Ideal.ofBits .f32 0x00000000#32
/-- The row width 1024 as a float word. -/
abbrev widthW : EReal := Ideal.ofBits .f32 0x44800000#32
/-- The reference's ε: the float nearest 1e-12. -/
abbrev epsRefW : EReal := Ideal.ofBits .f32 0x2B8CBCCC#32
/-- The kernel's ε: the same significand two binades lower, a quarter of the reference's. -/
abbrev epsKerW : EReal := Ideal.ofBits .f32 0x2A8CBCCC#32

/-- The reference's entry `k` of a row: normalise the DOUBLED row by its own mean and variance. -/
def refEntry (row : Fin 1024 → EReal) (g b : EReal) (k : Fin 1024) : EReal :=
  let y : Fin 1024 → EReal := fun j => row j + row j
  let mean : EReal := Ideal.div (zeroW + ∑ j, y j) widthW
  let var : EReal := Ideal.div (zeroW + ∑ j, (y j - mean) * (y j - mean)) (widthW - 0)
  Ideal.div (y k - mean) (Ideal.sqrt (var + epsRefW)) * g + b

/-- The kernel's entry `k` of a row: one pass over the undoubled row, the variance as the mean of the
    squares less the squared mean, the scale folded into one factor `s`. -/
def kerEntry (row : Fin 1024 → EReal) (g b : EReal) (k : Fin 1024) : EReal :=
  let mean : EReal := Ideal.div (∑ j, row j) widthW
  let msq : EReal := Ideal.div (∑ j, row j * row j) widthW
  let s : EReal := Ideal.rsqrt (msq - mean * mean + epsKerW) * g
  row k * s + (b - mean * s)

end Cert.LayerNorm

end
-- ==== Proof.KerRow.lean ====
/-
  The kernel body's stored value, entry by entry.

  The body loads a 2048 × 1024 block of rows and the two 1 × 1024 rows of scale and shift, and stores one
  2048 × 1024 block.  Entry `(p, k)` of what it stores depends only on row `p` of the loaded block and on the
  `k`-th scale and shift: the row's sum and the sum of its squares, each divided by the width, come back as
  2048 × 1 columns; the column of reciprocal square roots is spread across the row, multiplied by the scale row,
  and the entry is `x · s + (shift − mean · s)`.  That is `Cert.LayerNorm.kerEntry` of the row.
-/
import proofs.«180295_g39994735460779_cont_8to1_b_608_5_alg».proof.Proof.Gen.KernelIdeal.Skeleton
import proofs.«180295_g39994735460779_cont_8to1_b_608_5_alg».proof.Proof.LibColumns
import proofs.«180295_g39994735460779_cont_8to1_b_608_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.LibColumns

variable [Facts]

/-- The reciprocal square root of a vector is taken entry by entry. -/
theorem rsqrt_apply {s : Shape} (a : FVec Ideal s .f32) (i : s.Idx) : rsqrt a i = Ideal.rsqrt (a i) := rfl

/-- A row sum: the lane reduction of a 2048 × 1024 block, read at row `p`, is the sum of that row's entries. -/
theorem rowSum_apply (v : FVec Ideal S2048x1024 .f32) (h : S2048x1024.Reduces [1] S2048) (hφ : FKind.Formats .f32)
    (hacc : (0x00000000#32 : BitVec 32) = 0x00000000#32) (p : Fin 2048) :
    multiReduction .add [1] S2048 v 0x00000000#32 h hφ hacc (ix1 p) = ∑ j : Fin 1024, v (ix2 p j) := by
  refine (Ideal.multiReduction_add_single v 0x00000000#32 h hφ hacc (ix1 p)).trans ?_
  refine Finset.sum_congr rfl fun j _ => congrArg v ?_
  funext a
  match a with
  | ⟨0, _⟩ => rfl
  | ⟨1, _⟩ => rfl

/-- THE STORED BLOCK, entry `(p, k)`: the kernel's arrangement of the layer normalisation of row `p`. -/
theorem pay_apply (x0 : Vec Ideal S2048x1024 .f32) (x1 x2 : Vec Ideal S1x1024 .f32) (p : Fin 2048) (k : Fin 1024) :
    k0_pay1 x0 x1 x2 (ix2 p k)
      = Cert.LayerNorm.kerEntry (fun j => x0 (ix2 p j)) (x1 (ix2 (0 : Fin 1) k)) (x2 (ix2 (0 : Fin 1) k)) k := by
  unfold k0_pay1 Cert.LayerNorm.kerEntry
  simp only [shapeCast_self, addf_apply, mulf_apply, subf_apply, divf_apply, rsqrt_apply, broadcast_apply,
    broadcastTo_a1_ab_apply, broadcastTo_1b_ab_apply, shapeCast_a_a1_apply]
  rw [rowSum_apply x0 _ _ _ p, rowSum_apply (mulf x0 x0) _ _ _ p]
  rfl

end Cert.KernelIdeal.RowValue

end
-- ==== Proof.KerBlocks.lean ====
/-
  From blocks to the array.

  The rows are normalised 2048 at a time: grid point `t` (of 16) takes rows `2048 t … 2048 t + 2047` of the
  32768 × 1024 array of rows, together with the whole 1 × 1024 rows of scale and shift, and writes back the
  block of the same rows of the output array.  Since an output entry depends only on its own row, every block
  written back is a block of ONE function of the arrays as the region finds them, `rowsOut`; the sixteen blocks
  tile the output array, so after the last point the output array is that function.
-/
import proofs.«180295_g39994735460779_cont_8to1_b_608_5_alg».proof.Proof.Gen.KernelIdeal.Frame
import proofs.«180295_g39994735460779_cont_8to1_b_608_5_alg».proof.Proof.KerRow
import Idealize.ShloMosaic.Lib.Pipeline.Value
import Idealize.ShloMosaic.Lib.ValueIdx

noncomputable section

namespace Cert.KernelIdeal.ArrayValue

open Cert.KernelIdeal Cert.KernelIdeal.Gen Cert.KernelIdeal.Facts Cert.KernelIdeal.Facts₀
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output array of rows as one function of the array of rows and of the scale and shift rows: entry
    `(r, k)` is the kernel's normalisation of row `r` at `k`. -/
def rowsOut (x : S32768x1024.Idx → EReal) (g b : S1x1024.Idx → EReal) : S32768x1024.Idx → EReal :=
  fun i => Cert.LayerNorm.kerEntry (fun j => x (ix2 (i 0) j)) (g (ix2 (0 : Fin 1) (i 1))) (b (ix2 (0 : Fin 1) (i 1))) (i 1)

theorem rowsOut_apply (x : S32768x1024.Idx → EReal) (g b : S1x1024.Idx → EReal) (r : Fin 32768) (k : Fin 1024) :
    rowsOut x g b (ix2 r k)
      = Cert.LayerNorm.kerEntry (fun j => x (ix2 r j)) (g (ix2 (0 : Fin 1) k)) (b (ix2 (0 : Fin 1) k)) k := rfl

/-- Where the blocks sit: at point `t` the rows' window and the output's are at block row `t`, the scale's and
    the shift's at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the rows' block at point `t` is row `2048 t + p` of the array of rows. -/
theorem xblk_apply (c : Dev nD) (t : Fin cfg0.N) (p : Fin 2048) (j : Fin 1024) (r : Fin 32768)
    (hr : r.val = t.val * 2048 + p.val) :
    (iblk m c 0 t : Vec Ideal S2048x1024 .f32) (ix2 p j) = (V m c main_v0 : S32768x1024.Idx → EReal) (ix2 r j) := by
  obtain ⟨e0, e1, -⟩ := idx_facts t
  unfold iblk
  rw [View.read_apply]
  show (V m c main_v0 : S32768x1024.Idx → EReal) _ = _
  refine congrArg _ (funext fun a => Fin.ext ?_)
  match a with
  | ⟨0, _⟩ => show win0_0.index t (0 : Fin 2) * 2048 + 1 * p.val = r.val; omega
  | ⟨1, _⟩ => show win0_0.index t (1 : Fin 2) * 1024 + 1 * j.val = j.val; omega

/-- The scale's block at any point is the whole scale row. -/
theorem gblk_apply (c : Dev nD) (t : Fin cfg0.N) (k : Fin 1024) :
    (iblk m c 1 t : Vec Ideal S1x1024 .f32) (ix2 (0 : Fin 1) k) = (V m c main_v1 : S1x1024.Idx → EReal) (ix2 (0 : Fin 1) k) := by
  obtain ⟨-, -, e2, e3, -⟩ := idx_facts t
  unfold iblk
  rw [View.read_apply]
  show (V m c main_v1 : S1x1024.Idx → EReal) _ = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The shift's block at any point is the whole shift row. -/
theorem bblk_apply (c : Dev nD) (t : Fin cfg0.N) (k : Fin 1024) :
    (iblk m c 2 t : Vec Ideal S1x1024 .f32) (ix2 (0 : Fin 1) k) = (V m c main_v2 : S1x1024.Idx → EReal) (ix2 (0 : Fin 1) k) := by
  obtain ⟨-, -, -, -, e4, e5, -⟩ := idx_facts t
  unfold iblk
  rw [View.read_apply]
  show (V m c main_v2 : S1x1024.Idx → EReal) _ = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- WHAT POINT `t` WRITES BACK is block `t` of `rowsOut` of the arrays as the region finds them. -/
theorem flushed_eq (c : Dev nD) (t : Fin cfg0.N) :
    (dats m 0 c).flushed 3 t
      = ((cfg0.win 3).blk t).view.read (Elt Ideal) (rowsOut (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S2048x1024) hz, View.ld_unit_zero (S := S1x1024) hz]
  obtain ⟨-, -, -, -, -, -, e6, e7⟩ := idx_facts t
  funext y
  obtain ⟨p, k, rfl⟩ : ∃ (p : Fin 2048) (k : Fin 1024), y = (ix2 p k : S2048x1024.Idx) :=
    ⟨y 0, y 1, eq_ix2 (n0 := 2048) (n1 := 1024) y⟩
  have hN : cfg0.N = 16 := N_0
  have hr : t.val * 2048 + p.val < 32768 := by have := t.isLt; have := p.isLt; omega
  show k0_pay1 (iblk m c 0 t) (iblk m c 1 t) (iblk m c 2 t) (ix2 p k)
    = rowsOut _ _ _ (((cfg0.win 3).blk t).view.emb (ix2 p k))
  have hemb : ((cfg0.win 3).blk t).view.emb (ix2 p k : S2048x1024.Idx)
      = (ix2 (⟨t.val * 2048 + p.val, hr⟩ : Fin 32768) k : S32768x1024.Idx) := by
    funext a; apply Fin.ext
    match a with
    | ⟨0, _⟩ => show win0_3.index t (0 : Fin 2) * 2048 + 1 * p.val = t.val * 2048 + p.val; omega
    | ⟨1, _⟩ => show win0_3.index t (1 : Fin 2) * 1024 + 1 * k.val = k.val; omega
  rw [hemb, rowsOut_apply]
  refine (RowValue.pay_apply _ _ _ p k).trans ?_
  rw [gblk_apply m c t k, bblk_apply m c t k]
  exact congrArg (fun row => Cert.LayerNorm.kerEntry row _ _ k) (funext fun j => xblk_apply m c t p j _ rfl)

/-- An index of the output array is in point `t`'s block iff each coordinate is in the block's range. -/
theorem mem_blk (t : Fin cfg0.N) (i : S32768x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v3).slice (win0_3.rect t)).set ↔ _
  rw [View.set_slice_whole, Rect.mem_set_unit]
  exact Iff.rfl

/-- The sixteen blocks tile the output array: row `r` is in the block of point `r / 2048`. -/
theorem cover (i : S32768x1024.Idx) :
    ∃ t : Fin cfg0.N, (cfg0.win 3).flush t = true ∧ i ∈ ((cfg0.win 3).blk t).view.set := by
  have hN : cfg0.N = 16 := N_0
  have h0 : (i 0).val < 32768 := (i 0).isLt
  have h1 : (i 1).val < 1024 := (i 1).isLt
  have ht : (i 0).val / 2048 < cfg0.N := by rw [hN]; omega
  obtain ⟨-, -, -, -, -, -, e6, e7⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    rw [e7]; omega

/-- THE OUTPUT ARRAY after the run is `rowsOut` of the arrays as the region finds them. -/
theorem final (c : Dev nD) :
    (dats m 0 c).arrAt 3 cfg0.N = rowsOut (V m c main_v0) (V m c main_v1) (V m c main_v2) :=
  (dats m 0 c).arrAt_eq_of_cover 3 _ (fun t _ => flushed_eq m c t) cover

end Cert.KernelIdeal.ArrayValue

end
-- ==== Proof.KerArray.lean ====
/-
  The whole kernel program's result.

  Around the region the program only re-lays arrays: the 4 × 8192 × 1024 argument is read as 32768 rows of
  width 1024 (row `8192 a + q` is the argument's row `(a, q)`), the scale and the shift as 1 × 1024 rows, and
  the region's output array of rows is read back as 4 × 8192 × 1024.  So the program's result at `(a, q, k)` is
  the kernel's normalisation of the argument's row `(a, q)`, at `k`, with the `k`-th scale and shift.
-/
import proofs.«180295_g39994735460779_cont_8to1_b_608_5_alg».proof.Proof.KerBlocks
import Idealize.ShloMosaic.Lib.StableHlo.Run
import Idealize.ShloMosaic.Lib.ValueLayout

noncomputable section

namespace Cert.KernelIdeal.ArrayValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region finds the argument re-laid as 32768 rows. -/
theorem V_rows (c : Dev nD) : (V m c main_v0 : S32768x1024.Idx → EReal)
    = shapeCast S32768x1024 (m ((c : Thread nD τ).loc main_arg0) : S4x8192x1024.Idx → EReal) shapeCasts_S4x8192x1024_S32768x1024 := by
  show StableHlo.after hostOps0 (fun b => m (c, b)) (Proc.devRef .tc main_v0) = _
  after_results
  rfl

/-- The region finds the scale as one row. -/
theorem V_scale (c : Dev nD) : (V m c main_v1 : S1x1024.Idx → EReal)
    = shapeCast S1x1024 (m ((c : Thread nD τ).loc main_arg1) : S1024.Idx → EReal) shapeCasts_S1024_S1x1024 := by
  show StableHlo.after hostOps0 (fun b => m (c, b)) (Proc.devRef .tc main_v1) = _
  after_results
  rfl

/-- The region finds the shift as one row. -/
theorem V_shift (c : Dev nD) : (V m c main_v2 : S1x1024.Idx → EReal)
    = shapeCast S1x1024 (m ((c : Thread nD τ).loc main_arg2) : S1024.Idx → EReal) shapeCasts_S1024_S1x1024 := by
  show StableHlo.after hostOps0 (fun b => m (c, b)) (Proc.devRef .tc main_v2) = _
  after_results
  rfl

/-- THE PROGRAM'S RESULT as one function of its three arguments. -/
def result (x : S4x8192x1024.Idx → EReal) (g b : S1024.Idx → EReal) : S4x8192x1024.Idx → EReal :=
  shapeCast S4x8192x1024
    (rowsOut (shapeCast S32768x1024 x shapeCasts_S4x8192x1024_S32768x1024) (shapeCast S1x1024 g shapeCasts_S1024_S1x1024)
      (shapeCast S1x1024 b shapeCasts_S1024_S1x1024))
    shapeCasts_S32768x1024_S4x8192x1024

/-- What the line after the region leaves in the result buffer: the output array of rows, re-laid. -/
theorem tail_eq (c : Dev nD) :
    (Pipeline.afterTail₀ cfgs (dats m) 0 (V0 m) [hostOps1] c main_v4 : S4x8192x1024.Idx → EReal)
      = result (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v3)
      = rowsOut (V m c main_v0) (V m c main_v1) (V m c main_v2) :=
    (Pipeline.withArrays_arr spec0 launch0.win.arr_inj c _ _ 3).trans (final m c)
  unfold Pipeline.afterTail₀
  show StableHlo.after hostOps1 _ (Proc.devRef .tc main_v4) = _
  after_results
  rw [hw, V_rows, V_scale, V_shift]
  rfl

/-- THE RUN, read: the result buffer ends at `result` of the arguments, the arguments unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-- THE RESULT AT AN INDEX: entry `(a, q, k)` is the kernel's normalisation of the argument's row `(a, q)`. -/
theorem result_apply (x : S4x8192x1024.Idx → EReal) (g b : S1024.Idx → EReal) (a : Fin 4) (q : Fin 8192) (k : Fin 1024) :
    result x g b (ix3 a q k)
      = Cert.LayerNorm.kerEntry (fun j => x (ix3 a q j)) (g (ix1 k)) (b (ix1 k)) k := by
  have hr : a.val * 8192 + q.val < 32768 := by have := a.isLt; have := q.isLt; omega
  unfold result
  rw [shapeCast_apply _ _ (ix3 a q k) (ix2 (⟨a.val * 8192 + q.val, hr⟩ : Fin 32768) k) (by
    rw [Shape.rowMajor_val_two, Shape.rowMajor_val_three]
    show (a.val * 8192 + q.val) * 1024 + k.val = (a.val * 8192 + q.val) * 1024 + k.val
    rfl)]
  rw [rowsOut_apply, shapeCast_a_1a_apply, shapeCast_a_1a_apply]
  refine congrArg (fun row => Cert.LayerNorm.kerEntry row _ _ k) (funext fun j => ?_)
  exact shapeCast_apply _ _ _ _ (by
    rw [Shape.rowMajor_val_two, Shape.rowMajor_val_three]
    show (a.val * 8192 + q.val) * 1024 + j.val = (a.val * 8192 + q.val) * 1024 + j.val
    rfl)

end Cert.KernelIdeal.ArrayValue

end
-- ==== Proof.RefRun.lean ====
/-
  The reference's run, read back as a value.

  The reference is a straight line of host operations: @main doubles its first argument, takes each
  row's mean, calls a variance function (which recomputes the mean, sums the squared deviations, divides
  by the width less a converted integer zero, and guards the quotient by a select on that divisor being
  positive), and then normalises, scales and shifts.  With the two calls inlined the program is a list of
  forty-five operations, each writing one buffer of its own.  Running the list from any memory leaves in
  the result buffer the operations' composed term of the three arguments, and leaves the arguments as
  they were; `result` names that composed term.
-/
import proofs.«180295_g39994735460779_cont_8to1_b_608_5_alg».proof.ReferenceIdeal
import proofs.«180295_g39994735460779_cont_8to1_b_608_5_alg».proof.Proof.Gen.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-! ## The composed value -/

/-- A row sum: the sum over the last axis, from the zero word. -/
def rowSum (y : FVec F S4x8192x1024 .f32) : FVec F S4x8192 .f32 :=
  Host.reduceAdd (F := F) y (constant (F := F) S_ .f32 0x00000000#32) reducesTo_S4x8192x1024_S4x8192_d2 h_S_

/-- The mean of each row, as a column: the row sum over the width 1024. -/
def meanCol (y : FVec F S4x8192x1024 .f32) : FVec F S4x8192x1 .f32 :=
  Host.divf (F := F) (broadcastInDim S4x8192x1 ![0, 1] bcast_S4x8192_S4x8192x1_0_1 (rowSum y))
    (broadcastInDim S4x8192x1 ![] bcast_S_S4x8192x1 (constant (F := F) S_ .f32 0x44800000#32))

/-- The variance's divisor: the width less the integer zero converted to a float. -/
def divisor : FVec F S_ .f32 :=
  subf (constant (F := F) S_ .f32 0x44800000#32) (sitofp .f32 (constantI S_ 32 0#32))

/-- Each entry's deviation from its row's mean. -/
def deviation (y : FVec F S4x8192x1024 .f32) : FVec F S4x8192x1024 .f32 :=
  subf y (broadcastInDim S4x8192x1024 ![0, 1, 2] bcast_S4x8192x1_S4x8192x1024_0_1_2 (meanCol y))

/-- The variance of each row, as a column: the mean of the squared deviations where the divisor is
    positive, and the not-a-number word elsewhere. -/
def varCol (y : FVec F S4x8192x1024 .f32) : FVec F S4x8192x1 .f32 :=
  select (broadcastInDim S4x8192x1 ![] bcast_S_S4x8192x1 (cmpf .ogt (divisor (F := F)) (constant (F := F) S_ .f32 0x00000000#32)))
    (Host.divf (F := F)
      (broadcastInDim S4x8192x1 ![0, 1] bcast_S4x8192_S4x8192x1_0_1 (rowSum (mulf (deviation y) (deviation y))))
      (broadcastInDim S4x8192x1 ![] bcast_S_S4x8192x1 (divisor (F := F))))
    (broadcastInDim S4x8192x1 ![] bcast_S_S4x8192x1 (constant (F := F) S_ .f32 0x7FC00000#32))

/-- The normalised, scaled and shifted array, over any float values. -/
def resultG (x : FVec F S4x8192x1024 .f32) (g b : FVec F S1024 .f32) : FVec F S4x8192x1024 .f32 :=
  addf
    (mulf
      (Host.divf (F := F) (deviation (addf x x))
        (broadcastInDim S4x8192x1024 ![0, 1, 2] bcast_S4x8192x1_S4x8192x1024_0_1_2
          (Host.sqrt (F := F) (addf (varCol (addf x x))
            (broadcastInDim S4x8192x1 ![] bcast_S_S4x8192x1 (constant (F := F) S_ .f32 0x2B8CBCCC#32))))))
      (broadcastInDim S4x8192x1024 ![0, 1, 2] bcast_S1x1x1024_S4x8192x1024_0_1_2
        (broadcastInDim S1x1x1024 ![2] bcast_S1024_S1x1x1024_2 g)))
    (broadcastInDim S4x8192x1024 ![0, 1, 2] bcast_S1x1x1024_S4x8192x1024_0_1_2
      (broadcastInDim S1x1x1024 ![2] bcast_S1024_S1x1x1024_2 b))

/-- The reference's value on the extended reals. -/
def result (x : FVec Ideal S4x8192x1024 .f32) (g b : FVec Ideal S1024 .f32) : FVec Ideal S4x8192x1024 .f32 :=
  resultG (F := Ideal) x g b

/-! ## The program as a list of operations -/

/-- @main's operations in order, the variance function's and the select function's listed where they
    are called, over the calls' own buffers. -/
abbrev ops : List (HloOp τ sig (Elt F)) :=
  [ binary main_arg0 main_arg0 main_v0 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v0 main_cst main_v1 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v1 main_v2 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v3 (broadcastInDim S4x8192x1 ![] bcast_S_S4x8192x1 : (⟨S_, .f32⟩ : BufTy).Contents (Elt F) → (⟨S4x8192x1, .f32⟩ : BufTy).Contents (Elt F)),
    binary main_v2 main_v3 main_v4 (Host.divf : (⟨S4x8192x1, .f32⟩ : BufTy).Contents (Elt F) → (⟨S4x8192x1, .f32⟩ : BufTy).Contents (Elt F) → (⟨S4x8192x1, .f32⟩ : BufTy).Contents (Elt F)),
    nullary main_c (constantI S_ 32 0#32),
    TRef.nullary main_call0.cst (constant S_ .f32 0x00000000#32),
    TRef.binary (.of main_v0 : TRef sig ⟨S4x8192x1024, .f32⟩) main_call0.cst main_call0.v0 (fun x v => Host.reduceAdd x v reducesTo_S4x8192x1024_S4x8192_d2 h_S_),
    TRef.unary main_call0.v0 main_call0.v1 (broadcastInDim S4x8192x1 ![0, 1] bcast_S4x8192_S4x8192x1_0_1),
    TRef.nullary main_call0.cst_0 (constant S_ .f32 0x44800000#32),
    TRef.unary main_call0.cst_0 main_call0.v2 (broadcastInDim S4x8192x1 ![] bcast_S_S4x8192x1),
    TRef.binary main_call0.v1 main_call0.v2 main_call0.v3 Host.divf,
    TRef.unary main_call0.v3 main_call0.v4 (broadcastInDim S4x8192x1024 ![0, 1, 2] bcast_S4x8192x1_S4x8192x1024_0_1_2),
    TRef.binary (.of main_v0 : TRef sig ⟨S4x8192x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x8192x1024_S4x8192_d2 h_S_),
    TRef.unary main_call0.v9 main_call0.v10 (broadcastInDim S4x8192x1 ![0, 1] bcast_S4x8192_S4x8192x1_0_1),
    TRef.unary main_call0.v8 main_call0.v11 (broadcastInDim S4x8192x1 ![] bcast_S_S4x8192x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x8192x1 ![] bcast_S_S4x8192x1),
    TRef.ternary main_call0.v13 main_call0.v12 main_call0.call0.v1 main_call0.call0.v2 (fun p a b => select (broadcastInDim S4x8192x1 ![] bcast_S_S4x8192x1 p) a b),
    unary main_v4 main_v6 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v0 main_v6 main_v7 (subf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x2B8CBCCC#32),
    unary main_cst_1 main_v8 (broadcastInDim S4x8192x1 ![] bcast_S_S4x8192x1 : (⟨S_, .f32⟩ : BufTy).Contents (Elt F) → (⟨S4x8192x1, .f32⟩ : BufTy).Contents (Elt F)),
    binary main_v5 main_v8 main_v9 (addf : (⟨S4x8192x1, .f32⟩ : BufTy).Contents (Elt F) → (⟨S4x8192x1, .f32⟩ : BufTy).Contents (Elt F) → (⟨S4x8192x1, .f32⟩ : BufTy).Contents (Elt F)),
    unary main_v9 main_v10 (Host.sqrt : (⟨S4x8192x1, .f32⟩ : BufTy).Contents (Elt F) → (⟨S4x8192x1, .f32⟩ : BufTy).Contents (Elt F)),
    unary main_v10 main_v11 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v7 main_v11 main_v12 (Host.divf : (⟨S4x8192x1024, .f32⟩ : BufTy).Contents (Elt F) → (⟨S4x8192x1024, .f32⟩ : BufTy).Contents (Elt F) → (⟨S4x8192x1024, .f32⟩ : BufTy).Contents (Elt F)),
    unary main_arg1 main_v13 (broadcastInDim S1x1x1024 ![2] bcast_S1024_S1x1x1024_2 : (⟨S1024, .f32⟩ : BufTy).Contents (Elt F) → (⟨S1x1x1024, .f32⟩ : BufTy).Contents (Elt F)),
    unary main_v13 main_v14 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v12 main_v14 main_v15 (mulf : (⟨S4x8192x1024, .f32⟩ : BufTy).Contents (Elt F) → (⟨S4x8192x1024, .f32⟩ : BufTy).Contents (Elt F) → (⟨S4x8192x1024, .f32⟩ : BufTy).Contents (Elt F)),
    unary main_arg2 main_v16 (broadcastInDim S1x1x1024 ![2] bcast_S1024_S1x1x1024_2 : (⟨S1024, .f32⟩ : BufTy).Contents (Elt F) → (⟨S1x1x1024, .f32⟩ : BufTy).Contents (Elt F)),
    unary main_v16 main_v17 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v15 main_v17 main_v18 (addf : (⟨S4x8192x1024, .f32⟩ : BufTy).Contents (Elt F) → (⟨S4x8192x1024, .f32⟩ : BufTy).Contents (Elt F) → (⟨S4x8192x1024, .f32⟩ : BufTy).Contents (Elt F)) ]

-- forty-five binds are re-associated: the rewrite under the chain recurses once per statement
set_option maxRecDepth 2048 in
/-- @main is that straight line: the two functions' bodies unfolded where they are called, both sides are
    one chain of steps once the sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

set_option maxRecDepth 8192 in
/-- What the line leaves in the result buffer: the composed term of the contents of the three arguments. -/
theorem out_eq (V : Valuation τ sig (Elt F)) :
    after ops V (main_v18 : DevRef τ sig)
      = resultG (V (main_arg0 : DevRef τ sig)) (V (main_arg1 : DevRef τ sig)) (V (main_arg2 : DevRef τ sig)) := by
  after_results_simp
  rfl

/-- No operation of the line writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-! ## The run -/

/-- On every device, for any float values, from any memory with zero counters: every weakly fair execution of
    @main terminates with the result buffer at the composed term of the arguments, and the arguments unchanged. -/
theorem runG (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v18)
          = resultG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v18).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

/-- The same on the extended reals, the result named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  runG (F := Ideal) m ρ

end Cert.ReferenceIdeal.RefRun

end
-- ==== Proof.RefRead.lean ====
/-
  The reference's value read at one entry.

  Every operation of the composed term acts entrywise, or along one row: a broadcast repeats a column
  entry (or a scalar, or a row of the scale) at every place of the larger array, a row sum is the zero
  word plus the finite sum over the last coordinate, and the arithmetic is the extended reals' own.
  Reading the term at the entry `(p, q, k)` therefore leaves an expression in the row `(p, q)` of the
  first argument and entry `k` of the scale and the shift alone.  The one branch in the term, the
  select guarding the variance, is decided: its condition compares the width 1024 less a converted
  integer zero against zero, and `0 < 1024`.
-/
import proofs.«180295_g39994735460779_cont_8to1_b_608_5_alg».proof.Proof.RefRun
import proofs.«180295_g39994735460779_cont_8to1_b_608_5_alg».proof.Proof.Spec
import Idealize.ShloMosaic.Lib.ValueIdx
import Idealize.ShloMosaic.PureOps.Ideal.Laws

noncomputable section

namespace Cert.ReferenceIdeal.RefRun

open Cert.ReferenceIdeal Idealize.ShloMosaic Idealize.ShloMosaic.ValueIdx Cert.LayerNorm
open Cert.ReferenceIdeal.Facts₀

variable [Facts]

/-! ## Broadcasts read at an entry -/

/-- A column broadcast along the last axis: every entry of row `(p, q)` reads the column's entry there. -/
theorem bcastCol_apply (c : FVec Ideal S4x8192x1 .f32) (p : Fin 4) (q : Fin 8192) (k : Fin 1024) :
    broadcastInDim S4x8192x1024 ![0, 1, 2] bcast_S4x8192x1_S4x8192x1024_0_1_2 c (ix3 p q k) = c (ix3 p q (0 : Fin 1)) := by
  unfold broadcastInDim
  congr 1
  funext a
  fin_cases a <;> rfl

/-- A scalar broadcast to a column reads the scalar. -/
theorem bcastScalar_apply (c : FVec Ideal S_ .f32) (p : Fin 4) (q : Fin 8192) :
    broadcastInDim S4x8192x1 ![] bcast_S_S4x8192x1 c (ix3 p q (0 : Fin 1)) = c ix0 := by
  unfold broadcastInDim
  congr 1
  funext a
  exact a.elim0

/-- A one-bit scalar broadcast to a column reads the scalar. -/
theorem bcastBit_apply (c : IVec S_ 1) (p : Fin 4) (q : Fin 8192) :
    broadcastInDim S4x8192x1 ![] bcast_S_S4x8192x1 c (ix3 p q (0 : Fin 1)) = c ix0 := by
  unfold broadcastInDim
  congr 1
  funext a
  exact a.elim0

/-- The per-row array as a column: entry `(p, q, 0)` reads entry `(p, q)`. -/
theorem bcastRows_apply (c : FVec Ideal S4x8192 .f32) (p : Fin 4) (q : Fin 8192) :
    broadcastInDim S4x8192x1 ![0, 1] bcast_S4x8192_S4x8192x1_0_1 c (ix3 p q (0 : Fin 1)) = c (ix2 p q) := by
  unfold broadcastInDim
  congr 1
  funext a
  fin_cases a <;> rfl

/-- A vector of the last axis broadcast over the rows: entry `(p, q, k)` reads entry `k`. -/
theorem bcastVec_apply (v : FVec Ideal S1024 .f32) (p : Fin 4) (q : Fin 8192) (k : Fin 1024) :
    broadcastInDim S4x8192x1024 ![0, 1, 2] bcast_S1x1x1024_S4x8192x1024_0_1_2
      (broadcastInDim S1x1x1024 ![2] bcast_S1024_S1x1x1024_2 v) (ix3 p q k) = v (ix1 k) := by
  unfold broadcastInDim
  congr 1
  funext a
  fin_cases a
  rfl

/-! ## The row sum read at a row -/

/-- The inserted index of the sum over the last axis: row `(p, q)` with coordinate `j` put last. -/
theorem lift_eq (h : S4x8192x1024.Reduces [2] S4x8192) (p : Fin 4) (q : Fin 8192) (j : Fin 1024) :
    h.lift (ix2 p q) j = ix3 p q j := by
  funext a
  fin_cases a <;> exact Fin.ext rfl

/-- A row sum at row `(p, q)`: the zero word plus the sum of the row's 1024 entries. -/
theorem rowSum_apply (y : FVec Ideal S4x8192x1024 .f32) (p : Fin 4) (q : Fin 8192) :
    rowSum (F := Ideal) y (ix2 p q) = zeroW + ∑ j : Fin 1024, y (ix3 p q j) := by
  have h : S4x8192x1024.Reduces [2] S4x8192 := by decide
  unfold rowSum Host.reduceAdd
  show Ideal.hostReduceAdd reducesTo_S4x8192x1024_S4x8192_d2 y zeroW (ix2 p q) = _
  rw [Ideal.hostReduceAdd_single reducesTo_S4x8192x1024_S4x8192_d2 h]
  show zeroW + ∑ j : Fin 1024, y (h.lift (ix2 p q) j) = _
  simp only [lift_eq]

/-! ## The words and the guard -/

/-- The host's quotient and square root at an entry are the extended reals' own. -/
theorem hostDivf_apply {s : Shape} {φ : FTy} (a b : FVec Ideal s φ) (i : s.Idx) :
    Host.divf (F := Ideal) a b i = Ideal.div (a i) (b i) := rfl
theorem hostSqrt_apply {s : Shape} {φ : FTy} (a : FVec Ideal s φ) (i : s.Idx) :
    Host.sqrt (F := Ideal) a i = Ideal.sqrt (a i) := rfl

/-- The width word denotes the real number 1024. -/
theorem widthW_eq : widthW = ((1024 : ℝ) : EReal) := by
  simp [Ideal.ofBits, Ideal.ieee, -EReal.coe_mul]; norm_num

/-- The variance's divisor is positive: `0 < 1024 - 0`. -/
theorem zeroW_lt : zeroW < widthW - 0 := by
  rw [sub_zero, widthW_eq, show zeroW = 0 from Ideal.ofBits_zero_f32]
  exact EReal.coe_pos.mpr (by norm_num)

/-- The divisor's one entry: the width word less zero, the integer zero converting to the real zero. -/
theorem divisor_apply : divisor (F := Ideal) ix0 = widthW - 0 := by
  show widthW - (((0#32 : BitVec 32).toInt : ℝ) : EReal) = widthW - 0
  simp

/-- So the comparison guarding the variance answers one. -/
theorem guard_apply :
    cmpf .ogt (divisor (F := Ideal)) (constant (F := Ideal) S_ .f32 0x00000000#32) ix0 = 1#1 := by
  show BitVec.ofBool (decide (zeroW < divisor (F := Ideal) ix0)) = 1#1
  rw [divisor_apply, decide_eq_true zeroW_lt]
  rfl

/-! ## The stages read at a row -/

/-- The mean column at row `(p, q)`: the row sum over the width word. -/
theorem meanCol_apply (y : FVec Ideal S4x8192x1024 .f32) (p : Fin 4) (q : Fin 8192) :
    meanCol (F := Ideal) y (ix3 p q (0 : Fin 1)) = Ideal.div (zeroW + ∑ j : Fin 1024, y (ix3 p q j)) widthW := by
  unfold meanCol
  rw [hostDivf_apply, bcastRows_apply, bcastScalar_apply, rowSum_apply]
  rfl

/-- The deviation at an entry: the entry less its row's mean. -/
theorem deviation_apply (y : FVec Ideal S4x8192x1024 .f32) (p : Fin 4) (q : Fin 8192) (k : Fin 1024) :
    deviation (F := Ideal) y (ix3 p q k) = y (ix3 p q k) - meanCol (F := Ideal) y (ix3 p q (0 : Fin 1)) := by
  unfold deviation
  rw [subf_apply, bcastCol_apply]

/-- The variance column at row `(p, q)`: the guard is one, so the select reads the quotient. -/
theorem varCol_apply (y : FVec Ideal S4x8192x1024 .f32) (p : Fin 4) (q : Fin 8192) :
    varCol (F := Ideal) y (ix3 p q (0 : Fin 1))
      = Ideal.div (zeroW + ∑ j : Fin 1024,
            (y (ix3 p q j) - meanCol (F := Ideal) y (ix3 p q (0 : Fin 1))) * (y (ix3 p q j) - meanCol (F := Ideal) y (ix3 p q (0 : Fin 1))))
          (widthW - 0) := by
  unfold varCol
  rw [select_apply, bcastBit_apply, guard_apply, select_one, hostDivf_apply, bcastRows_apply, bcastScalar_apply,
    rowSum_apply, divisor_apply]
  simp only [mulf_apply, deviation_apply]

/-! ## The result read at an entry -/

/-- The reference's value at entry `(p, q, k)` is the normalisation of the doubled row `(p, q)` at `k`,
    scaled by the scale's entry `k` and shifted by the shift's. -/
theorem result_apply (x : FVec Ideal S4x8192x1024 .f32) (g b : FVec Ideal S1024 .f32) (p : Fin 4) (q : Fin 8192) (k : Fin 1024) :
    result x g b (ix3 p q k)
      = Cert.LayerNorm.refEntry (fun j => x (ix3 p q j)) (g (ix1 k)) (b (ix1 k)) k := by
  unfold result resultG
  rw [addf_apply, mulf_apply, hostDivf_apply, bcastCol_apply, hostSqrt_apply, addf_apply, bcastScalar_apply,
    bcastVec_apply, bcastVec_apply, deviation_apply, varCol_apply, meanCol_apply]
  simp only [addf_apply]
  rfl

end Cert.ReferenceIdeal.RefRun

end
-- ==== Proof.Consts.lean ====
/-
  The values of the four float words that the two arrangements of the layer normalisation spell.

  A normal single-precision word with exponent field E and fraction field T denotes
  (2^23 + T) * 2^(E - 150).

  * 0x00000000 is the zero word.
  * 0x44800000 has E = 137 and T = 0: 2^23 * 2^(-13) = 1024, the width of a row.
  * 0x2A8CBCCC has E = 85 and T = 0x0CBCCC = 834764: (2^23 + 834764) * 2^(-65) = 9223372 * 2^(-65).
    This is the regulariser of the one-pass arrangement; it is called `epsK` below.
  * 0x2B8CBCCC has the same fraction and E = 87, two binades higher: 9223372 * 2^(-63) = 4 * epsK.
    This is the regulariser of the two-pass arrangement on the doubled row.

  That the second regulariser is exactly four times the first is what lets the factor two of the doubled
  row cancel: sqrt (4 v + 4 epsK) = 2 sqrt (v + epsK).
-/
import proofs.«180295_g39994735460779_cont_8to1_b_608_5_alg».proof.Proof.Spec
import Idealize.ShloMosaic.PureOps.Ideal.Laws

noncomputable section

namespace Cert.LayerNorm

open Idealize.ShloMosaic

/-- The zero word denotes `0`. -/
theorem zeroW_eq : zeroW = 0 := Ideal.ofBits_zero_f32

/-- The width word denotes the real `1024`. -/
theorem widthW_eq : widthW = ((1024 : ℝ) : EReal) := by
  simp [Ideal.ofBits, Ideal.ieee, -EReal.coe_mul]; norm_num

/-- The smaller regulariser, `9223372 * 2^(-65)` (about `2.5e-13`). -/
def epsK : ℝ := 9223372 * (2 : ℝ) ^ (-65 : ℤ)

theorem epsK_pos : 0 < epsK := by
  unfold epsK; positivity

/-- The one-pass arrangement's regulariser word denotes `epsK`. -/
theorem epsKerW_eq : epsKerW = ((epsK : ℝ) : EReal) := by
  simp [Ideal.ofBits, Ideal.ieee, -EReal.coe_mul, epsK]

/-- The two-pass arrangement's regulariser word denotes `4 * epsK`: the same significand, two binades up. -/
theorem epsRefW_eq : epsRefW = ((4 * epsK : ℝ) : EReal) := by
  simp [Ideal.ofBits, Ideal.ieee, -EReal.coe_mul, epsK]; norm_num

end Cert.LayerNorm

end
-- ==== Proof.Law.lean ====
/-
  The law that joins the two arrangements of a row-wise layer normalisation.

  Write x for a row of 1024 real numbers, mu = (sum x) / 1024 for its mean, q = (sum x^2) / 1024 for the
  mean of its squares and v = q - mu^2 for its variance.

  * v is also the mean squared deviation, (sum (x j - mu)^2) / 1024: expand the square and use
    sum x = 1024 mu.  In particular v >= 0, so v + eps > 0 for a positive eps and every square root below
    is the square root of a positive number.
  * The doubled row y = x + x has mean 2 mu and mean squared deviation 4 v.
  * sqrt (4 v + 4 eps) = 2 sqrt (v + eps).

  The two-pass arrangement computes (y k - 2 mu) / sqrt (4 v + 4 eps) * gamma + beta on the doubled row; the
  factor two cancels and leaves (x k - mu) / sqrt (v + eps) * gamma + beta.  The one-pass arrangement computes
  x k * s + (beta - mu * s) with s = gamma / sqrt (v + eps), which is the same number.

  On the extended reals every operation here meets only real numbers, a nonzero real divisor and a
  positive argument of the square root, so each operation is the real one and the statement about
  extended reals follows from the statement about reals by moving the embedding outwards.
-/
import proofs.«180295_g39994735460779_cont_8to1_b_608_5_alg».proof.Proof.Spec
import proofs.«180295_g39994735460779_cont_8to1_b_608_5_alg».proof.Proof.Consts

noncomputable section

namespace Cert.LayerNorm

open Idealize.ShloMosaic

/-! ### The operations on embedded reals -/

/-- A finite sum of embedded reals is the embedded sum. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The quotient of two embedded reals with a nonzero divisor is the embedded quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-- Division by the row width. -/
theorem div_width (a : ℝ) : Ideal.div (a : EReal) ((1024 : ℝ) : EReal) = ((a / 1024 : ℝ) : EReal) :=
  div_coe_coe a (by norm_num)

/-- The square root of an embedded nonnegative real. -/
theorem sqrt_coe_of_nonneg {r : ℝ} (hr : 0 ≤ r) : Ideal.sqrt (r : EReal) = ((Real.sqrt r : ℝ) : EReal) := by
  rw [Ideal.sqrt_coe, if_neg (not_lt.mpr hr)]

/-- The reciprocal square root of an embedded positive real. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-! ### The statistics of a row of reals -/

/-- The mean of a row. -/
def rowMean (x : Fin 1024 → ℝ) : ℝ := (∑ j, x j) / 1024
/-- The mean of the squares of a row. -/
def rowMeanSq (x : Fin 1024 → ℝ) : ℝ := (∑ j, x j * x j) / 1024
/-- The variance of a row: the mean of the squares less the squared mean. -/
def rowVar (x : Fin 1024 → ℝ) : ℝ := rowMeanSq x - rowMean x * rowMean x

/-- The variance is the mean squared deviation from the mean. -/
theorem mean_sq_dev (x : Fin 1024 → ℝ) :
    (∑ j, (x j - rowMean x) * (x j - rowMean x)) / 1024 = rowVar x := by
  have h : ∑ j, (x j - rowMean x) * (x j - rowMean x)
      = (∑ j, x j * x j) - 2 * rowMean x * (∑ j, x j) + 1024 * (rowMean x * rowMean x) := by
    have e : ∀ j, (x j - rowMean x) * (x j - rowMean x)
        = x j * x j - 2 * rowMean x * x j + rowMean x * rowMean x := fun j => by ring
    simp only [e, Finset.sum_add_distrib, Finset.sum_sub_distrib, ← Finset.mul_sum, Finset.sum_const,
      Finset.card_univ, Fintype.card_fin, nsmul_eq_mul, Nat.cast_ofNat]
    ring
  rw [h]
  unfold rowVar rowMeanSq rowMean
  ring

/-- So the variance is not negative. -/
theorem rowVar_nonneg (x : Fin 1024 → ℝ) : 0 ≤ rowVar x := by
  rw [← mean_sq_dev]
  exact div_nonneg (Finset.sum_nonneg fun j _ => mul_self_nonneg _) (by norm_num)

/-- The doubled row has twice the mean. -/
theorem mean_double (x : Fin 1024 → ℝ) : (∑ j, (x j + x j)) / 1024 = 2 * rowMean x := by
  rw [Finset.sum_add_distrib]
  unfold rowMean
  ring

/-- The doubled row has four times the mean squared deviation. -/
theorem var_double (x : Fin 1024 → ℝ) :
    (∑ j, (x j + x j - 2 * rowMean x) * (x j + x j - 2 * rowMean x)) / 1024 = 4 * rowVar x := by
  rw [← mean_sq_dev, ← mul_div_assoc, Finset.mul_sum]
  refine congrArg (· / 1024) (Finset.sum_congr rfl fun j _ => ?_)
  ring

/-- `sqrt (4 r) = 2 sqrt r`. -/
theorem sqrt_four_mul (r : ℝ) : Real.sqrt (4 * r) = 2 * Real.sqrt r := by
  rw [Real.sqrt_mul (by norm_num : (0 : ℝ) ≤ 4), show (4 : ℝ) = 2 ^ 2 by norm_num,
    Real.sqrt_sq (by norm_num : (0 : ℝ) ≤ 2)]

/-- The two arrangements as real numbers. -/
theorem real_law (x : Fin 1024 → ℝ) (γ β : ℝ) (k : Fin 1024) :
    (x k + x k - 2 * rowMean x) / Real.sqrt (4 * rowVar x + 4 * epsK) * γ + β
      = x k * ((Real.sqrt (rowVar x + epsK))⁻¹ * γ)
          + (β - rowMean x * ((Real.sqrt (rowVar x + epsK))⁻¹ * γ)) := by
  have hpos : 0 < rowVar x + epsK := add_pos_of_nonneg_of_pos (rowVar_nonneg x) epsK_pos
  have hs : Real.sqrt (rowVar x + epsK) ≠ 0 := (Real.sqrt_pos.mpr hpos).ne'
  rw [← mul_add, sqrt_four_mul]
  field_simp
  ring

/-! ### The two arrangements on a row of embedded reals -/

/-- The two-pass arrangement on the doubled row, as an embedded real. -/
theorem refEntry_coe (x : Fin 1024 → ℝ) (γ β : ℝ) (k : Fin 1024) :
    refEntry (fun j => ((x j : ℝ) : EReal)) (γ : EReal) (β : EReal) k
      = (((x k + x k - 2 * rowMean x) / Real.sqrt (4 * rowVar x + 4 * epsK) * γ + β : ℝ) : EReal) := by
  have hpos : 0 < 4 * rowVar x + 4 * epsK := by
    have h1 := rowVar_nonneg x
    have h2 := epsK_pos
    linarith
  simp only [refEntry, zeroW_eq, widthW_eq, epsRefW_eq, zero_add, sub_zero, ← EReal.coe_add, coe_sum,
    div_width, ← EReal.coe_sub, ← EReal.coe_mul, mean_double, var_double]
  rw [sqrt_coe_of_nonneg hpos.le, div_coe_coe _ (Real.sqrt_pos.mpr hpos).ne', ← EReal.coe_mul,
    ← EReal.coe_add]

/-- The one-pass arrangement, as an embedded real. -/
theorem kerEntry_coe (x : Fin 1024 → ℝ) (γ β : ℝ) (k : Fin 1024) :
    kerEntry (fun j => ((x j : ℝ) : EReal)) (γ : EReal) (β : EReal) k
      = ((x k * ((Real.sqrt (rowVar x + epsK))⁻¹ * γ)
          + (β - rowMean x * ((Real.sqrt (rowVar x + epsK))⁻¹ * γ)) : ℝ) : EReal) := by
  have hpos : 0 < rowVar x + epsK := add_pos_of_nonneg_of_pos (rowVar_nonneg x) epsK_pos
  have hm : (∑ j, x j) / 1024 = rowMean x := rfl
  have hq : (∑ j, x j * x j) / 1024 = rowMeanSq x := rfl
  have hv : rowMeanSq x - rowMean x * rowMean x = rowVar x := rfl
  simp only [kerEntry, widthW_eq, epsKerW_eq, ← EReal.coe_mul, coe_sum, div_width, ← EReal.coe_sub,
    ← EReal.coe_add, hm, hq, hv]
  rw [rsqrt_coe_of_pos hpos]
  simp only [← EReal.coe_mul, ← EReal.coe_sub, ← EReal.coe_add]

/-- **The law.**  On a row of real numbers with a real scale and a real shift the two arrangements
    give the same entry. -/
theorem entry_eq (row : Fin 1024 → EReal) (g b : EReal) (hrow : ∀ j, ∃ r : ℝ, row j = (r : EReal))
    (hg : ∃ r : ℝ, g = (r : EReal)) (hb : ∃ r : ℝ, b = (r : EReal)) (k : Fin 1024) :
    refEntry row g b k = kerEntry row g b k := by
  choose x hx using hrow
  obtain ⟨γ, rfl⟩ := hg
  obtain ⟨β, rfl⟩ := hb
  obtain rfl : row = fun j => ((x j : ℝ) : EReal) := funext hx
  rw [refEntry_coe, kerEntry_coe, real_law]

end Cert.LayerNorm

end
-- ==== Proof.Finite.lean ====
/-
  Finiteness: a row-wise normalisation is compared on rows of real numbers, and the claim's precondition
  is what supplies them.  The precondition computes, for each of the three arrays, the conjunction over
  every entry of the comparison `|x| < +∞`, and states that the conjunction of the three answers is true.

  On the extended reals `|x| = max x (-x)`, and `max x (-x) < ⊤` fails at both infinities (each has
  absolute value `⊤`), so an entry that passes the comparison is the image of a real number.  A conjunction
  over all entries that comes out true has met only true entries, which gives the fact at every index; the
  three arrays are separated by splitting the two outer conjunctions.
-/
import proofs.«180295_g39994735460779_cont_8to1_b_608_5_alg».proof.Pre_finite_inputs
import Idealize.ShloMosaic.Lib.ReduceAll
import Idealize.ShloMosaic.Lib.ValueIdx
import Idealize.ShloMosaic.PureOps.Ideal
import Idealize.ShloMosaic.PureOps.Ideal.Laws

namespace Cert.LayerNorm.Finite

open Idealize.ShloMosaic

/-- The word `0x7F800000` (sign 0, exponent all ones, significand 0) denotes `+∞`. -/
theorem posInf_eq_top : Ideal.ofBits .f32 0x7F800000#32 = (⊤ : EReal) := by
  simp [Ideal.ofBits, Ideal.ieee]

/-- An extended real whose absolute value `max x (-x)` is strictly below `+∞` is a real number:
    at `⊥` and at `⊤` the absolute value is `⊤` itself. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison `|x| < +∞` of one entry, read back: if it answers true, the entry is a real number. -/
theorem real_of_cmp (x : EReal)
    (h : Ideal.cmp .olt (max x (-x)) (Ideal.ofBits .f32 0x7F800000#32) = 1#1) : ∃ r : ℝ, x = (r : EReal) := by
  rw [posInf_eq_top] at h
  refine real_of_abs_lt_top x ?_
  unfold Ideal.cmp at h
  by_contra hn
  simp [hn] at h

/-- The result of a reduction over every axis has a single index. -/
instance subsingleton_scalarIdx : Subsingleton Cert.Pre_finite_inputs.S_.Idx := ⟨fun a b => funext fun d => d.elim0⟩

/-- One array's `all (|x| < +∞)`: if the conjunction over every entry is true, every entry is a real number.
    Stated for any shape, so that it serves the rank-3 input and the two rank-1 parameters alike. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf (F := Ideal) x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu ValueIdx.ix0 e i
  exact real_of_cmp (x i) hi

/-- From the precondition to real entries: the three arrays' answers are conjoined, so each is true, and each
    is the conjunction over all entries of its array. -/
theorem real_of_pre [Cert.Pre_finite_inputs.Facts]
    (x : FVec Ideal Cert.Pre_finite_inputs.S4x8192x1024 .f32) (g b : FVec Ideal Cert.Pre_finite_inputs.S1024 .f32)
    (h : Cert.Pre_finite_inputs.fn (F := Ideal) x g b = (fun _ => 1#1)) :
    (∀ i, ∃ r : ℝ, x i = (r : EReal)) ∧ (∀ i, ∃ r : ℝ, g i = (r : EReal)) ∧ (∀ i, ∃ r : ℝ, b i = (r : EReal)) := by
  have h0 := congrFun h ValueIdx.ix0
  dsimp only [Cert.Pre_finite_inputs.fn] at h0
  obtain ⟨hxg, hb⟩ := IntOp.andi_eq_one.1 h0
  obtain ⟨hx, hg⟩ := IntOp.andi_eq_one.1 hxg
  exact ⟨real_of_all x _ _ _ hx, real_of_all g _ _ _ hg, real_of_all b _ _ _ hb⟩

end Cert.LayerNorm.Finite
-- ==== Proof.lean ====
/-
  A row-wise layer normalisation of the doubled input, computed two ways, gives one result on the extended
  reals whenever the inputs are finite.

  The reference doubles the array (`y = x + x`), takes each row's mean and the mean of its squared deviations,
  and returns `(y - mean) / sqrt (var + ε) * γ + β`.  The kernel never doubles: for each row of `x` it takes the
  mean `μ` and the mean of the squares `q` in one pass, forms `s = rsqrt (q - μ² + ε/4) * γ`, and returns
  `x * s + (β - μ * s)`; it works on 2048 rows at a time over the array re-laid as 32768 rows.  Doubling a row
  doubles its mean and quadruples its variance, `q - μ²` is the variance of `x`, and the kernel's ε is exactly a
  quarter of the reference's (the same significand two binades lower), so
  `sqrt (4 v + ε) = 2 sqrt (v + ε/4)` and the factor two cancels.  Distributing `x - μ` over `s` and cancelling
  the two need real numbers, which the precondition supplies: every entry of the three arrays is finite.

  The pieces: `Spec` states the two arrangements of one row; `Consts` evaluates the four float words; `Law`
  proves the two arrangements equal on rows of reals; `Finite` reads finiteness out of the precondition;
  `KerRow`, `KerBlocks` and `KerArray` read the kernel program's result, entry by entry, as the kernel's
  arrangement of the argument's row; `RefRun` and `RefRead` do the same for the reference.  Nothing was
  rewritten between the kernel as compiled and its idealization, so that claim is trivial.
-/
import proofs.«180295_g39994735460779_cont_8to1_b_608_5_alg».proof.Defs
import proofs.«180295_g39994735460779_cont_8to1_b_608_5_alg».proof.Proof.Gen.Kernel
import proofs.«180295_g39994735460779_cont_8to1_b_608_5_alg».proof.Proof.Gen.Kernel.Frame
import proofs.«180295_g39994735460779_cont_8to1_b_608_5_alg».proof.Proof.Gen.KernelIdeal
import proofs.«180295_g39994735460779_cont_8to1_b_608_5_alg».proof.Proof.Gen.KernelIdeal.Frame
import proofs.«180295_g39994735460779_cont_8to1_b_608_5_alg».proof.Proof.Gen.ReferenceIdeal
import proofs.«180295_g39994735460779_cont_8to1_b_608_5_alg».proof.Proof.Gen.Pre_finite_inputs
import proofs.«180295_g39994735460779_cont_8to1_b_608_5_alg».proof.Proof.KerArray
import proofs.«180295_g39994735460779_cont_8to1_b_608_5_alg».proof.Proof.RefRead
import proofs.«180295_g39994735460779_cont_8to1_b_608_5_alg».proof.Proof.Law
import proofs.«180295_g39994735460779_cont_8to1_b_608_5_alg».proof.Proof.Finite
import Idealize.ShloMosaic.Adequacy
import Idealize.ShloMosaic.Init

noncomputable section

namespace Cert.Proof

open Idealize.ShloMosaic Idealize.SL.Sem Idealize.ShloMosaic.ValueIdx

/-- The kernel as compiled runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.RefRun.run m ρ)

/-- On finite arguments the two programs' results are one array: entry `(a, q, k)` of each is an arrangement of
    the layer normalisation of the argument's row `(a, q)`, and the two arrangements agree on rows of reals. -/
theorem results_eq (x : FVec Ideal Cert.KernelIdeal.S4x8192x1024 .f32) (g b : FVec Ideal Cert.KernelIdeal.S1024 .f32)
    (hx : ∀ i, ∃ r : ℝ, x i = (r : EReal)) (hg : ∀ i, ∃ r : ℝ, g i = (r : EReal)) (hb : ∀ i, ∃ r : ℝ, b i = (r : EReal)) :
    Cert.ReferenceIdeal.RefRun.result x g b = Cert.KernelIdeal.ArrayValue.result x g b := by
  funext i
  obtain ⟨a, q, k, rfl⟩ : ∃ (a : Fin 4) (q : Fin 8192) (k : Fin 1024), i = ix3 a q k := ⟨i 0, i 1, i 2, eq_ix3 i⟩
  rw [Cert.ReferenceIdeal.RefRun.result_apply, Cert.KernelIdeal.ArrayValue.result_apply]
  exact Cert.LayerNorm.entry_eq _ _ _ (fun j => hx _) (hg _) (hb _) k

/-- From memories that agree on the arguments, both idealized programs run, and they end with equal results. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  obtain ⟨hx, hg, hb⟩ := Cert.LayerNorm.Finite.real_of_pre _ _ _ (hpre c)
  exact results_eq _ _ _ hx hg hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
